-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S10000x128 : Shape := ⟨2, ![10000, 128]⟩
abbrev S10000x1 : Shape := ⟨2, ![10000, 1]⟩
abbrev S1x128 : Shape := ⟨2, ![1, 128]⟩

abbrev nBuf : Space → Nat
  | .hbm => 28
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S_, .i32⟩
  | .hbm, ⟨22, _⟩ => ⟨S100000, .i32⟩
  | .hbm, ⟨23, _⟩ => ⟨S1600000x1, .i32⟩
  | .hbm, ⟨24, _⟩ => ⟨S100000, .i32⟩
  | .hbm, ⟨25, _⟩ => ⟨S100000, .f32⟩
  | .hbm, ⟨26, _⟩ => ⟨S100000x1, .f32⟩
  | .hbm, ⟨27, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S10000x128, .f32⟩
  | .local _ .vmem, ⟨10, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageEntry.lean ====
/-
  The kernel body's arithmetic at one entry of a block.

  On a block of 10000 nodes the body computes, from the block's rows of X and AGG, the block's column
  of degrees, and the whole W, RW and bias,

      (AGG / broadcast(max(deg, 1))) @ W  +  X @ RW  +  broadcast(bias).

  Read at row p and channel q: a matrix product into the zero accumulator is the sum over the
  contracted index k of the products; the degree column broadcast along the lanes is the column's
  entry of row p; the bias cast to one row and broadcast down the rows is the bias at q.
-/
import proofs.«169489_j30081950941520_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- Row coordinate of the left operand's index: the output's row. -/
theorem lhs_row (i : S10000x128.Idx) (z : dot_S10000x128_S128x128_S10000x128_1_0_0_1_n_n.contr.Idx) :
    (dot_S10000x128_S128x128_S10000x128_1_0_0_1_n_n.lhsIdx i z 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Column coordinate of the left operand's index: the contracted index. -/
theorem lhs_col (i : S10000x128.Idx) (z : dot_S10000x128_S128x128_S10000x128_1_0_0_1_n_n.contr.Idx) :
    (dot_S10000x128_S128x128_S10000x128_1_0_0_1_n_n.lhsIdx i z 1).val = (z ⟨0, by decide⟩).val :=
  dot_S10000x128_S128x128_S10000x128_1_0_0_1_n_n.lhsIdx_val_of_single rfl i z
/-- Row coordinate of the right operand's index: the contracted index. -/
theorem rhs_row (i : S10000x128.Idx) (z : dot_S10000x128_S128x128_S10000x128_1_0_0_1_n_n.contr.Idx) :
    (dot_S10000x128_S128x128_S10000x128_1_0_0_1_n_n.rhsIdx i z 0).val = (z ⟨0, by decide⟩).val :=
  dot_S10000x128_S128x128_S10000x128_1_0_0_1_n_n.rhsIdx_val_of_single rfl i z
/-- Column coordinate of the right operand's index: the output's channel. -/
theorem rhs_col (i : S10000x128.Idx) (z : dot_S10000x128_S128x128_S10000x128_1_0_0_1_n_n.contr.Idx) :
    (dot_S10000x128_S128x128_S10000x128_1_0_0_1_n_n.rhsIdx i z 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's matrix product into the zero accumulator, at row p and channel q: the row of the left operand
    times the column of the right one. -/
theorem matmul_entry (l : FVec Ideal S10000x128 .f32) (r : FVec Ideal S128x128 .f32) (p : Fin 10000) (q : Fin 128) :
    matmul (F := Ideal) dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The mean-aggregated block at row p and feature k: the aggregated feature over the row's degree floored at one
    (the degree column is broadcast along the 128 lanes). -/
theorem mean_entry (v0 : FVec Ideal S10000x1 .f32) (v4 : FVec Ideal S10000x128 .f32) (p : Fin 10000) (k : Fin 128) :
    divf (shapeCast S10000x128 v4 shapeCasts_S10000x128_S10000x128)
        (broadcastTo S10000x128 (maximumf (shapeCast S10000x1 v0 shapeCasts_S10000x1_S10000x1)
          (broadcast S10000x1 (Scalar.ofBits (F := Ideal) .f32 0x3F800000#32))) broadcasts_S10000x1_S10000x128) (ix2 p k)
      = Ideal.div (v4 (ix2 p k)) (max (v0 (ix2 p (0 : Fin 1))) (Ideal.ofBits .f32 0x3F800000#32)) := by
  rw [shapeCast_self, shapeCast_self]
  show Ideal.div (v4 (ix2 p k)) (broadcastTo S10000x128 (maximumf v0 (broadcast S10000x1 (Scalar.ofBits (F := Ideal) .f32 0x3F800000#32))) broadcasts_S10000x1_S10000x128 (ix2 p k)) = _
  rw [broadcastTo_apply _ broadcasts_S10000x1_S10000x128 (ix2 p k) (ix2 p (0 : Fin 1)) (fun a => by
    match a with
    | ⟨0, _⟩ => show p.val = if (10000 : Nat) = 1 then 0 else p.val; rw [if_neg (by decide)]
    | ⟨1, _⟩ => show 0 = if (1 : Nat) = 1 then 0 else k.val; rw [if_pos rfl])]
  rfl

/-- The bias, cast to one row and broadcast down the rows, at row p and channel q: the bias at q. -/
theorem bias_entry (v14 : FVec Ideal S128 .f32) (p : Fin 10000) (q : Fin 128) :
    broadcastTo S10000x128 (shapeCast S1x128 v14 shapeCasts_S128_S1x128) broadcasts_S1x128_S10000x128 (ix2 p q) = v14 (ix1 q) :=
  (broadcastTo_1b_ab_apply _ broadcasts_S1x128_S10000x128 p q).trans (shapeCast_a_1a_apply v14 shapeCasts_S128_S1x128 0 q)

/-- THE BODY AT AN ENTRY: the stored value at row p, channel q of the block, from the loaded blocks. -/
theorem pay_entry (v0 : FVec Ideal S10000x1 .f32) (v4 : FVec Ideal S10000x128 .f32) (v8 : FVec Ideal S128x128 .f32)
    (v10 : FVec Ideal S10000x128 .f32) (v11 : FVec Ideal S128x128 .f32) (v14 : FVec Ideal S128 .f32) (p : Fin 10000) (q : Fin 128) :
    k0_pay1 (F := Ideal) v0 v4 v8 v10 v11 v14 (ix2 p q)
      = (∑ k : Fin 128, Ideal.div (v4 (ix2 p k)) (max (v0 (ix2 p (0 : Fin 1))) (Ideal.ofBits .f32 0x3F800000#32)) * v8 (ix2 k q))
        + (∑ k : Fin 128, v10 (ix2 p k) * v11 (ix2 k q)) + v14 (ix1 q) := by
  unfold k0_pay1
  exact congrArg₂ (· + ·)
    (congrArg₂ (· + ·)
      ((matmul_entry _ v8 p q).trans (Finset.sum_congr rfl fun k _ => congrArg (· * v8 (ix2 k q)) (mean_entry v0 v4 p k)))
      (matmul_entry v10 v11 p q))
    (bias_entry v14 p q)

end Cert.KernelIdeal.Body

end
-- ==== Proof.Spec.lean ====
/-
  The function both programs compute, entry by entry, on the extended reals.

  For node r and output channel c, with AGG the summed neighbour features (one row per node), deg the
  number of incoming edges of each node, W and RW the two 128 x 128 weight matrices and B the bias:

      out(r, c) = (Σ_k (AGG(r,k) / max(deg r, 1)) · W(k,c))  +  (Σ_k X(r,k) · RW(k,c))  +  B(c).

  The quotient is the ideal division, the literal 1 is kept as the f32 word both programs print, and
  the three terms are added in this order by both programs.  No finiteness is used anywhere: the two
  sides are the same arrangement of the same sums.
-/
import Idealize.ShloMosaic.PureOps.Ideal
import Idealize.ShloMosaic.Lib.ValueIdx

noncomputable section

namespace Cert.Sage

open Idealize.ShloMosaic Idealize.ShloMosaic.ValueIdx

/-- One entry of the mean-aggregated features: the aggregated feature divided by the degree floored at one. -/
def meanEntry (AGG : (⟨2, ![100000, 128]⟩ : Shape).Idx → EReal) (deg : Fin 100000 → EReal) (r : Fin 100000) (k : Fin 128) : EReal :=
  Ideal.div (AGG (ix2 r k)) (max (deg r) (Ideal.ofBits .f32 0x3F800000#32))

/-- One entry of the layer's output: mean-aggregated features times W, plus the node's own features times RW, plus the bias. -/
def entry (X AGG : (⟨2, ![100000, 128]⟩ : Shape).Idx → EReal) (deg : Fin 100000 → EReal)
    (W RW : (⟨2, ![128, 128]⟩ : Shape).Idx → EReal) (B : (⟨1, ![128]⟩ : Shape).Idx → EReal) (r : Fin 100000) (c : Fin 128) : EReal :=
  (∑ k : Fin 128, meanEntry AGG deg r k * W (ix2 k c)) + (∑ k : Fin 128, X (ix2 r k) * RW (ix2 k c)) + B (ix1 c)

/-- The whole output array. -/
def out (X AGG : (⟨2, ![100000, 128]⟩ : Shape).Idx → EReal) (deg : Fin 100000 → EReal)
    (W RW : (⟨2, ![128, 128]⟩ : Shape).Idx → EReal) (B : (⟨1, ![128]⟩ : Shape).Idx → EReal) :
    (⟨2, ![100000, 128]⟩ : Shape).Idx → EReal :=
  fun i => entry X AGG deg W RW B (i 0) (i 1)

theorem out_ix2 (X AGG : (⟨2, ![100000, 128]⟩ : Shape).Idx → EReal) (deg : Fin 100000 → EReal)
    (W RW : (⟨2, ![128, 128]⟩ : Shape).Idx → EReal) (B : (⟨1, ![128]⟩ : Shape).Idx → EReal) (r : Fin 100000) (c : Fin 128) :
    out X AGG deg W RW B (ix2 r c) = entry X AGG deg W RW B r c := rfl

/-- The output depends on its six arrays only through their values. -/
theorem out_congr {X X' AGG AGG' : (⟨2, ![100000, 128]⟩ : Shape).Idx → EReal} {deg deg' : Fin 100000 → EReal}
    {W W' RW RW' : (⟨2, ![128, 128]⟩ : Shape).Idx → EReal} {B B' : (⟨1, ![128]⟩ : Shape).Idx → EReal}
    (hX : X = X') (hA : AGG = AGG') (hd : deg = deg') (hW : W = W') (hR : RW = RW') (hB : B = B') :
    out X AGG deg W RW B = out X' AGG' deg' W' RW' B' := by
  subst hX hA hd hW hR hB; rfl

end Cert.Sage

end
-- ==== Proof.KernelValue.lean ====
/-
  The kernel's output array, from blocks to the whole array.

  The grid has 10 points; point t stages rows [10000·t, 10000·t + 10000) of X, of the aggregated features
  and of the degree column, the whole of W, RW and the bias, and writes back the same rows of the output.
  So what point t writes back is block t of the specification's output taken over the arrays as the region
  finds them; the 10 blocks cover every row, hence the output array after the run IS that function.
-/
import proofs.«169489_j30081950941520_2_alg».proof.Proof.Gen.KernelIdeal.Value
import proofs.«169489_j30081950941520_2_alg».proof.Proof.SageEntry
import proofs.«169489_j30081950941520_2_alg».proof.Proof.Spec

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row-tiled windows (X, aggregated features, degrees, output) are at block
    row t and block column 0; the resident windows (W, RW, bias) are at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 ∧ t.val < 10 :=
  (by decide +kernel : ∀ t : Fin grid0.N, _)

/-- Every block row of the output is some point's. -/
theorem idx_onto : ∀ (b : Fin 10), ∃ t : Fin cfg0.N, win0_6.index t = ![b.val, 0] :=
  (by decide +kernel : ∀ (b : Fin 10), ∃ t : Fin grid0.N, win0_6.index t = ![b.val, 0])

/-- The array row of row p of point t's block. -/
def row (t : Fin cfg0.N) (p : Fin 10000) : Fin 100000 :=
  ⟨t.val * 10000 + p.val, by have := (idx_facts t).2.2.2.2.2.2.2.2.2.2.2.2.2; have := p.isLt; omega⟩

/-! ## The input blocks, read where the output block's rows say

Each lemma is stated first for an ARBITRARY array A (so that nothing about the array's contents is ever looked
at), then instantiated at the array the region finds. -/

theorem rows0 (A : (⟨2, ![100000, 128]⟩ : Shape).Idx → EReal) (t : Fin cfg0.N) (p : Fin 10000) (k : Fin 128) :
    ((cfg0.win 0).blk t).view.read (Elt Ideal) A (ix2 p k) = A (ix2 (row t p) k) := by
  show A (((cfg0.win 0).blk t).view.emb (ix2 p k)) = _
  refine congrArg A (funext fun a => Fin.ext ?_)
  obtain ⟨e0, e1, -⟩ := idx_facts t
  match a with
  | ⟨0, _⟩ => show win0_0.index t (0 : Fin 2) * 10000 + 1 * p.val = t.val * 10000 + p.val; omega
  | ⟨1, _⟩ => show win0_0.index t (1 : Fin 2) * 128 + 1 * k.val = k.val; omega

theorem rows1 (A : (⟨2, ![100000, 128]⟩ : Shape).Idx → EReal) (t : Fin cfg0.N) (p : Fin 10000) (k : Fin 128) :
    ((cfg0.win 1).blk t).view.read (Elt Ideal) A (ix2 p k) = A (ix2 (row t p) k) := by
  show A (((cfg0.win 1).blk t).view.emb (ix2 p k)) = _
  refine congrArg A (funext fun a => Fin.ext ?_)
  obtain ⟨-, -, e0, e1, -⟩ := idx_facts t
  match a with
  | ⟨0, _⟩ => show win0_1.index t (0 : Fin 2) * 10000 + 1 * p.val = t.val * 10000 + p.val; omega
  | ⟨1, _⟩ => show win0_1.index t (1 : Fin 2) * 128 + 1 * k.val = k.val; omega

theorem rows2 (A : (⟨2, ![100000, 1]⟩ : Shape).Idx → EReal) (t : Fin cfg0.N) (p : Fin 10000) :
    ((cfg0.win 2).blk t).view.read (Elt Ideal) A (ix2 p (0 : Fin 1)) = A (ix2 (row t p) (0 : Fin 1)) := by
  show A (((cfg0.win 2).blk t).view.emb (ix2 p (0 : Fin 1))) = _
  refine congrArg A (funext fun a => Fin.ext ?_)
  obtain ⟨-, -, -, -, e0, e1, -⟩ := idx_facts t
  match a with
  | ⟨0, _⟩ => show win0_2.index t (0 : Fin 2) * 10000 + 1 * p.val = t.val * 10000 + p.val; omega
  | ⟨1, _⟩ => show win0_2.index t (1 : Fin 2) * 1 + 1 * 0 = 0; omega

theorem rows3 (A : (⟨2, ![128, 128]⟩ : Shape).Idx → EReal) (t : Fin cfg0.N) (k q : Fin 128) :
    ((cfg0.win 3).blk t).view.read (Elt Ideal) A (ix2 k q) = A (ix2 k q) := by
  show A (((cfg0.win 3).blk t).view.emb (ix2 k q)) = _
  refine congrArg A (funext fun a => Fin.ext ?_)
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * q.val = q.val; omega

theorem rows4 (A : (⟨2, ![128, 128]⟩ : Shape).Idx → EReal) (t : Fin cfg0.N) (k q : Fin 128) :
    ((cfg0.win 4).blk t).view.read (Elt Ideal) A (ix2 k q) = A (ix2 k q) := by
  show A (((cfg0.win 4).blk t).view.emb (ix2 k q)) = _
  refine congrArg A (funext fun a => Fin.ext ?_)
  obtain ⟨-, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 128 + 1 * q.val = q.val; omega

theorem rows5 (A : (⟨1, ![128]⟩ : Shape).Idx → EReal) (t : Fin cfg0.N) (q : Fin 128) :
    ((cfg0.win 5).blk t).view.read (Elt Ideal) A (ix1 q) = A (ix1 q) := by
  show A (((cfg0.win 5).blk t).view.emb (ix1 q)) = _
  refine congrArg A (funext fun a => Fin.ext ?_)
  obtain ⟨-, -, -, -, -, -, -, -, -, -, e0, -⟩ := idx_facts t
  match a with
  | ⟨0, _⟩ => show win0_5.index t (0 : Fin 1) * 128 + 1 * q.val = q.val; omega

theorem read0 (c : Dev nD) (t : Fin cfg0.N) (p : Fin 10000) (k : Fin 128) :
    iblk m c 0 t (ix2 p k) = V m c main_arg0 (ix2 (row t p) k) := by
  unfold iblk
  exact rows0 (V m c main_arg0) t p k

theorem read1 (c : Dev nD) (t : Fin cfg0.N) (p : Fin 10000) (k : Fin 128) :
    iblk m c 1 t (ix2 p k) = V m c main_v9 (ix2 (row t p) k) := by
  unfold iblk
  exact rows1 (V m c main_v9) t p k

theorem read2 (c : Dev nD) (t : Fin cfg0.N) (p : Fin 10000) :
    iblk m c 2 t (ix2 p (0 : Fin 1)) = V m c main_v15 (ix2 (row t p) (0 : Fin 1)) := by
  unfold iblk
  exact rows2 (V m c main_v15) t p

theorem read3 (c : Dev nD) (t : Fin cfg0.N) (k q : Fin 128) :
    iblk m c 3 t (ix2 k q) = V m c main_arg1 (ix2 k q) := by
  unfold iblk
  exact rows3 (V m c main_arg1) t k q

theorem read4 (c : Dev nD) (t : Fin cfg0.N) (k q : Fin 128) :
    iblk m c 4 t (ix2 k q) = V m c main_arg2 (ix2 k q) := by
  unfold iblk
  exact rows4 (V m c main_arg2) t k q

theorem read5 (c : Dev nD) (t : Fin cfg0.N) (q : Fin 128) :
    iblk m c 5 t (ix1 q) = V m c main_arg3 (ix1 q) := by
  unfold iblk
  exact rows5 (V m c main_arg3) t q

/-! ## One entry of a block, from blocks that are rows of whole arrays -/

/-- If the loaded blocks are the rows [10000·T, 10000·T + 10000) of X, AGG and the degree column and the whole
    of W, RW and B, the body's stored value at row p, channel q is the specification's entry at that array row. -/
theorem block_entry (X AGG : (⟨2, ![100000, 128]⟩ : Shape).Idx → EReal) (DEG : (⟨2, ![100000, 1]⟩ : Shape).Idx → EReal)
    (W RW : (⟨2, ![128, 128]⟩ : Shape).Idx → EReal) (B : (⟨1, ![128]⟩ : Shape).Idx → EReal)
    (R : Fin 10000 → Fin 100000)
    (x0 x1 : FVec Ideal S10000x128 .f32) (x2 : FVec Ideal S10000x1 .f32) (x3 x4 : FVec Ideal S128x128 .f32) (x5 : FVec Ideal S128 .f32)
    (h0 : ∀ (p : Fin 10000) (k : Fin 128), x0 (ix2 p k) = X (ix2 (R p) k))
    (h1 : ∀ (p : Fin 10000) (k : Fin 128), x1 (ix2 p k) = AGG (ix2 (R p) k))
    (h2 : ∀ (p : Fin 10000), x2 (ix2 p (0 : Fin 1)) = DEG (ix2 (R p) (0 : Fin 1)))
    (h3 : ∀ (k q : Fin 128), x3 (ix2 k q) = W (ix2 k q))
    (h4 : ∀ (k q : Fin 128), x4 (ix2 k q) = RW (ix2 k q))
    (h5 : ∀ (q : Fin 128), x5 (ix1 q) = B (ix1 q)) (p : Fin 10000) (q : Fin 128) :
    k0_pay1 (F := Ideal) x2 x1 x3 x0 x4 x5 (ix2 p q)
      = Cert.Sage.entry X AGG (fun r => DEG (ix2 r (0 : Fin 1))) W RW B (R p) q := by
  rw [Body.pay_entry]
  unfold Cert.Sage.entry Cert.Sage.meanEntry
  simp only [h0, h1, h2, h3, h4, h5]

/-! ## What a point writes back, the cover, the whole array -/

/-- The specification's output over the arrays as the region finds them. -/
abbrev outV (c : Dev nD) : (⟨2, ![100000, 128]⟩ : Shape).Idx → EReal :=
  Cert.Sage.out (V m c main_arg0) (V m c main_v9) (fun r => V m c main_v15 (ix2 r (0 : Fin 1))) (V m c main_arg1) (V m c main_arg2) (V m c main_arg3)

/-- WHAT POINT t WRITES BACK is block t of the specification's output. -/
theorem flushed6_eq (c : Dev nD) (t : Fin cfg0.N) :
    (dats m 0 c).flushed 6 t = ((cfg0.win 6).blk t).view.read (Elt Ideal) (outV m c) := by
  rw [Value.flushed6]
  unfold out0_6
  rw [View.canon_unit_zero hz2]
  simp only [View.ld_unit_zero (S := S10000x1) hz2, View.ld_unit_zero (S := S10000x128) hz2,
    View.ld_unit_zero (S := S128x128) hz2, View.ld_unit_zero (S := S128) hz1]
  funext j
  obtain ⟨p, q, rfl⟩ : ∃ (p : Fin 10000) (q : Fin 128), j = ix2 p q := ⟨j 0, j 1, eq_ix2 j⟩
  have he : ((cfg0.win 6).blk t).view.emb (ix2 p q) = ix2 (row t p) q := funext fun a => Fin.ext (by
    obtain ⟨-, -, -, -, -, -, -, -, -, -, -, e0, e1, -⟩ := idx_facts t
    match a with
    | ⟨0, _⟩ => show win0_6.index t (0 : Fin 2) * 10000 + 1 * p.val = t.val * 10000 + p.val; omega
    | ⟨1, _⟩ => show win0_6.index t (1 : Fin 2) * 128 + 1 * q.val = q.val; omega)
  show k0_pay1 (F := Ideal) (iblk m c 2 t) (iblk m c 1 t) (iblk m c 3 t) (iblk m c 0 t) (iblk m c 4 t) (iblk m c 5 t) (ix2 p q)
    = outV m c (((cfg0.win 6).blk t).view.emb (ix2 p q))
  rw [he]
  exact block_entry (V m c main_arg0) (V m c main_v9) (V m c main_v15) (V m c main_arg1) (V m c main_arg2) (V m c main_arg3)
    (row t) (iblk m c 0 t) (iblk m c 1 t) (iblk m c 2 t) (iblk m c 3 t) (iblk m c 4 t) (iblk m c 5 t)
    (read0 m c t) (read1 m c t) (read2 m c t) (read3 m c t) (read4 m c t) (read5 m c t) p q

/-- An index of the output array is in point t's block iff each coordinate is in the block's range on its axis. -/
theorem mem_blk6 (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v16).slice (win0_6.rect t)).set ↔ _
  rw [View.set_slice_whole, Rect.mem_set_unit]
  exact Iff.rfl

/-- THE COVER: row r of the output is in the block of point r / 10000. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- THE OUTPUT ARRAY after the run is the specification's output over the arrays as the region finds them. -/
theorem final6 (c : Dev nD) : (dats m 0 c).arrAt 6 cfg0.N = outV m c :=
  (dats m 0 c).arrAt_eq_of_cover 6 (outV m c) (fun t _ => flushed6_eq m c t) cover6

end Cert.KernelIdeal.KernelValue

end
-- ==== Proof.RefValue.lean ====
/-
  The reference, read at an entry, is the specification.

  The reference divides the aggregated features by the degree floored at one (the floor is taken on the
  degree vector, which is then laid out as a column and repeated along the 128 lanes), multiplies by W,
  adds the node features times RW, and adds the bias repeated down the rows.  Read at node r and channel c
  each host matrix product is the sum over the contracted index, and each layout step reads its operand at
  the matching coordinates; what is left is the specification's entry, term for term.
  The aggregated features and the float degree count are carried as they stand: neither is opened here.
-/
import proofs.«169489_j30081950941520_2_alg».proof.Proof.Gen.ReferenceIdeal.Read
import proofs.«169489_j30081950941520_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's mean-aggregated features at node r, feature k: the aggregated feature over the node's degree
    floored at one — the floored degree vector, laid out as a column and repeated along the lanes, read at (r, k). -/
theorem mean_at (x0 : (⟨S100000x128, .f32⟩ : BufTy).Contents (Elt Ideal)) (x4 x5 : (⟨S1600000, .i32⟩ : BufTy).Contents (Elt Ideal))
    (r : Fin 100000) (k : Fin 128) :
    val_main_v18 (F := Ideal) x0 x4 x5 (ix2 r k)
      = Cert.Sage.meanEntry (val_main_v9 (F := Ideal) x0 x4 x5) (fun r => val_main_v13 (F := Ideal) x4 (ix1 r)) r k := by
  have e17 : idx_main_v16 (idx_main_v17 (ix2 r k)) = ix1 r := funext fun a => Fin.ext (by
    match a with | ⟨0, _⟩ => rfl)
  rw [val_main_v18_apply, val_main_v17_apply, val_main_v16_apply, e17, val_main_v15_apply, val_main_v14_apply,
    val_main_cst_3_apply]
  rfl

/-- The reference's result is the specification's output, with the aggregated features and the float degree count
    as the reference computes them. -/
theorem result_eq (x0 : (⟨S100000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S1600000, .i32⟩ : BufTy).Contents (Elt Ideal)) :
    val_main_v24 (F := Ideal) x0 x1 x2 x3 x4 x5
      = Cert.Sage.out x0 (val_main_v9 (F := Ideal) x0 x4 x5) (fun r => val_main_v13 (F := Ideal) x4 (ix1 r)) x1 x2 x3 := by
  funext i
  obtain ⟨r, c, rfl⟩ : ∃ (r : Fin 100000) (c : Fin 128), i = ix2 r c := ⟨i 0, i 1, eq_ix2 i⟩
  rw [Cert.Sage.out_ix2]
  have e19l : ∀ k : Fin 128, lidx_main_v19 (ix2 r c) k = ix2 r k := fun k => funext fun a => Fin.ext (by
    match a with | ⟨0, _⟩ => rfl | ⟨1, _⟩ => rfl)
  have e19r : ∀ k : Fin 128, ridx_main_v19 (ix2 r c) k = ix2 k c := fun k => funext fun a => Fin.ext (by
    match a with | ⟨0, _⟩ => rfl | ⟨1, _⟩ => rfl)
  have e20l : ∀ k : Fin 128, lidx_main_v20 (ix2 r c) k = ix2 r k := fun k => funext fun a => Fin.ext (by
    match a with | ⟨0, _⟩ => rfl | ⟨1, _⟩ => rfl)
  have e20r : ∀ k : Fin 128, ridx_main_v20 (ix2 r c) k = ix2 k c := fun k => funext fun a => Fin.ext (by
    match a with | ⟨0, _⟩ => rfl | ⟨1, _⟩ => rfl)
  have e23 : idx_main_v22 (idx_main_v23 (ix2 r c)) = ix1 c := funext fun a => Fin.ext (by
    match a with | ⟨0, _⟩ => rfl)
  rw [val_main_v24_apply, val_main_v21_apply, val_main_v19_apply, val_main_v20_apply, val_main_v23_apply, val_main_v22_apply]
  unfold Cert.Sage.entry
  refine congrArg₂ (· + ·) (congrArg₂ (· + ·) (Finset.sum_congr rfl fun k _ => ?_) (Finset.sum_congr rfl fun k _ => ?_)) ?_
  · rw [e19l, e19r, mean_at]
  · rw [e20l, e20r]
  · rw [e23]

end Cert.ReferenceIdeal.RefValue

end
-- ==== Proof.LibScatterCount.lean ====
/-
  Counting by scatter. A host scatter that adds the 32-bit word 1 into a zero array, one update per
  entry of an index list, leaves at each element the WORD of the number of updates that land on it:
  the scatter is a left fold over the updates in row-major order, each step adding 1 at the element
  the update lands on (when it lands inside the array) and changing nothing elsewhere.  The number of
  updates is below 2^31, so that word read as a signed integer is the number itself.

  At the ideal values the accumulating float scatter of the constant 1.0 into a zero array is, at each
  element, 0 plus the sum of 1 over the updates that land on it: the same number.  Both scatters use
  one test for "update j lands on element i" (the dimension record's result index), so the two
  degree counts agree whatever the indices are — out-of-range indices are dropped by both.
-/
import Idealize.ShloMosaic.PureOps.Ideal.Laws
import Idealize.ShloMosaic.Lib.ValueIdx

noncomputable section

namespace Cert.LibScatterCount

open Idealize.ShloMosaic

/-- A left fold whose every step adds the word 1 at the elements it hits, and keeps the others, ends
    at the start value plus the word of the number of hitting steps. -/
theorem foldl_hits {ι β : Type} (step : (ι → BitVec 32) → β → (ι → BitVec 32)) (hit : β → ι → Prop)
    [∀ n i, Decidable (hit n i)]
    (hstep : ∀ r n i, step r n i = if hit n i then r i + 1#32 else r i) (L : List β) (r0 : ι → BitVec 32) (i : ι) :
    L.foldl step r0 i = r0 i + BitVec.ofNat 32 (L.countP fun n => hit n i) := by
  induction L generalizing r0 with
  | nil => simp
  | cons n L ih =>
    rw [List.foldl_cons, ih, hstep, List.countP_cons]
    by_cases h : hit n i
    · simp only [h, if_true, decide_true]
      rw [BitVec.add_assoc]
      congr 1
      rw [Nat.add_comm, BitVec.ofNat_add]
    · simp [h]

/-- Counting the entries of `List.finRange N` that satisfy a property of their preimage under a bijection
    is counting the elements of the other type that satisfy it. -/
theorem countP_finRange_equiv {α : Type} [Fintype α] {N : Nat} (e : α ≃ Fin N) (p : α → Prop) [DecidablePred p] :
    (List.finRange N).countP (fun n => p (e.symm n)) = (Finset.univ.filter p).card := by
  have h1 : (Finset.univ.filter fun n : Fin N => p (e.symm n)).card = (Finset.univ.filter p).card :=
    Finset.card_equiv e.symm (by intro n; simp)
  rw [← h1, List.countP_eq_length_filter, ← List.toFinset_card_of_nodup ((List.nodup_finRange N).filter _),
    List.toFinset_filter, List.toFinset_finRange]
  congr 1
  ext n
  simp

/-- A natural number below 2^31, as a 32-bit word read signed, is itself. -/
theorem toInt_ofNat_of_lt {c : Nat} (h : c < 2 ^ 31) : (BitVec.ofNat 32 c).toInt = (c : Int) := by
  rw [BitVec.toInt_eq_toNat_cond, BitVec.toNat_ofNat]
  have : c % 2 ^ 32 = c := Nat.mod_eq_of_lt (by omega)
  rw [this]
  split
  · rfl
  · omega

/-- The f32 word of 1.0 is the real number 1. -/
theorem ofBits_one_f32 : Ideal.ofBits .f32 0x3F800000#32 = ((1 : ℝ) : EReal) := by
  simp [Ideal.ofBits, Ideal.ieee, -EReal.coe_mul]; norm_num

/-- A sum of ones over a finite set, on the extended reals, is the set's size. -/
theorem sum_one_eq_card {ι : Type} (S : Finset ι) : (∑ _j ∈ S, ((1 : ℝ) : EReal)) = ((S.card : ℝ) : EReal) := by
  classical
  induction S using Finset.induction_on with
  | empty => simp
  | insert a S ha ih =>
    rw [Finset.sum_insert ha, ih, Finset.card_insert_of_notMem ha, ← EReal.coe_add]
    congr 1
    push_cast
    ring

variable {s si u : Shape} {w : Nat}

/-- The integer scatter of ones into zeros: at each element, the word of the number of updates landing on it. -/
theorem scatter_addi_ones (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  unfold Host.scatter
  rw [foldl_hits _ (fun (n : Fin u.numel) (i : s.Idx) => d.resultIdx? (u.rowMajor.symm n) idx = some i) ?_ _ _ i,
    BitVec.zero_add, countP_finRange_equiv u.rowMajor (fun j => d.resultIdx? j idx = some i)]
  intro r n i'
  dsimp only
  cases d.resultIdx? (u.rowMajor.symm n) idx with
  | none => simp
  | some k =>
    by_cases h : i' = k
    · subst h; simp [IntOp.addi]
    · have : ¬ (some k = some i') := fun e => h (Option.some.inj e).symm
      simp [h, this]

/-- THE TWO DEGREE COUNTS AGREE: the integer scatter of ones, converted to a float, is at the ideal values the
    accumulating float scatter of 1.0 into zeros, element by element, when the updates number fewer than 2^31. -/
theorem sitofp_scatter_ones_eq_scatterAdd (d : ScatterDims s si u) (idx : IVec si w) (hN : u.numel < 2 ^ 31) (i : s.Idx) :
    (sitofp .f32 (Host.scatter d IntOp.addi (fun _ => 0#32) idx (fun _ => 1#32)) : FVec Ideal s .f32) i
      = Host.scatterAdd (F := Ideal) (φ := .f32) d (fun _ => Ideal.ofBits .f32 0x00000000#32) idx
          (fun _ => Ideal.ofBits .f32 0x3F800000#32) i := by
  have hcard : (Finset.univ.filter fun j : u.Idx => d.resultIdx? j idx = some i).card < 2 ^ 31 := by
    refine lt_of_le_of_lt (Finset.card_le_univ _) ?_
    rw [Fintype.card_congr u.rowMajor, Fintype.card_fin]
    exact hN
  show ((((Host.scatter d IntOp.addi (fun _ => 0#32) idx (fun _ => 1#32) i).toInt : ℝ)) : EReal)
      = Ideal.ofBits .f32 0x00000000#32 + ∑ j ∈ Finset.univ.filter (fun j => d.resultIdx? j idx = some i), Ideal.ofBits .f32 0x3F800000#32
  rw [scatter_addi_ones, toInt_ofNat_of_lt hcard, Ideal.ofBits_zero_f32, zero_add, ofBits_one_f32, sum_one_eq_card]
  simp

end Cert.LibScatterCount

end
-- ==== Proof.Bridge.lean ====
/-
  The two programs' host stages, identified.

  Both programs gather the neighbour rows x[col] (negative indices shifted by the row count first) and add
  them into a zero array at the rows row names: the SAME operations on the same arguments, so the aggregated
  features are one term and are never opened.

  The degree is where the programs differ: the kernel's program counts in 32-bit integers (a scatter adding
  the word 1 into zeros) and converts the count to a float, the reference adds the float 1.0 into zeros.
  With 1 600 000 edges a count is below 2^31, so the converted integer count is the exact count, which is
  what the ideal float scatter of ones gives; both drop an update whose row index is out of range, by the
  same test.  The kernel's program then lays the degree vector out as a column.
-/
import proofs.«169489_j30081950941520_2_alg».proof.Proof.Gen.KernelIdeal.Frame
import proofs.«169489_j30081950941520_2_alg».proof.Proof.Gen.ReferenceIdeal.Read
import proofs.«169489_j30081950941520_2_alg».proof.Proof.LibScatterCount
import Idealize.ShloMosaic.Lib.StableHlo.Run
import Idealize.ShloMosaic.Lib.Pipeline.Value
import Idealize.ShloMosaic.Lib.ValueIdx

noncomputable section

namespace Cert.Bridge

open Idealize.ShloMosaic Idealize.ShloMosaic.TcCoe Idealize.SL.Sem Idealize.ShloMosaic.ValueIdx Idealize.ShloMosaic.StableHlo

/-! ## The kernel program's host stages as functions of the arguments -/

section Kernel
open Cert.KernelIdeal Cert.KernelIdeal.Facts₀

/-- The aggregated features, as the kernel's program computes them before the call. -/
def aggK (x0 : (⟨S100000x128, .f32⟩ : BufTy).Contents (Elt Ideal)) (x4 x5 : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x4)
    (Host.gather gather_S100000x128_S1600000x1_S1600000x128_1_0_n_n_0_1_1128 x0
      (broadcastInDim S1600000x1 ![0] bcast_S1600000_S1600000x1_0
        (select (cmpi .slt x5 (broadcastInDim S1600000 ![] bcast_S_S1600000 (constantI S_ 32 0#32)))
          (addi x5 (broadcastInDim S1600000 ![] bcast_S_S1600000 (constantI S_ 32 100000#32))) x5)))

/-- The integer degree count, as the kernel's program computes it before the call. -/
def cntK (x4 : (⟨S1600000, .i32⟩ : BufTy).Contents (Elt Ideal)) : (⟨S100000, .i32⟩ : BufTy).Contents (Elt Ideal) :=
  Host.scatter scatter_S100000_S1600000x1_S1600000_n_0_0_1 IntOp.addi
    (broadcastInDim S100000 ![] bcast_S_S100000 (constantI S_ 32 0#32))
    (broadcastInDim S1600000x1 ![0] bcast_S1600000_S1600000x1_0 x4)
    (broadcastInDim S1600000 ![] bcast_S_S1600000 (constantI S_ 32 1#32))

/-- The degree column the call receives: the integer count converted to a float and laid out as a column. -/
def degColK (x4 : (⟨S1600000, .i32⟩ : BufTy).Contents (Elt Ideal)) : (⟨S100000x1, .f32⟩ : BufTy).Contents (Elt Ideal) :=
  broadcastInDim S100000x1 ![0] bcast_S100000_S100000x1_0 (sitofp (F := Ideal) .f32 (cntK x4))

variable (m : (ℓ : Loc nD τ sig) → Buf (Elt Ideal) ℓ)

/-- The call's second operand is the aggregated features of the arguments. -/
theorem V_agg (c : Dev nD) : (Gen.V m c main_v9 : (⟨S100000x128, .f32⟩ : BufTy).Contents (Elt Ideal))
    = aggK (m ((c : Thread nD τ).loc main_arg0)) (m ((c : Thread nD τ).loc main_arg4)) (m ((c : Thread nD τ).loc main_arg5)) := by
  dsimp only [Gen.V, Gen.hostOps0]; after_results; rfl

/-- The call's third operand is the degree column of the arguments. -/
theorem V_deg (c : Dev nD) : (Gen.V m c main_v15 : (⟨S100000x1, .f32⟩ : BufTy).Contents (Elt Ideal))
    = degColK (m ((c : Thread nD τ).loc main_arg4)) := by
  dsimp only [Gen.V, Gen.hostOps0]; after_results; rfl

end Kernel

/-! ## The dimension records of the two programs are the same records -/

theorem scatterRows_eq : Cert.KernelIdeal.scatter_S100000x128_S1600000x1_S1600000x128_1_0_0_1
    = Cert.ReferenceIdeal.scatter_S100000x128_S1600000x1_S1600000x128_1_0_0_1 := rfl
theorem scatterCount_eq : Cert.KernelIdeal.scatter_S100000_S1600000x1_S1600000_n_0_0_1
    = Cert.ReferenceIdeal.scatter_S100000_S1600000x1_S1600000_n_0_0_1 := rfl
theorem gatherRows_eq : Cert.KernelIdeal.gather_S100000x128_S1600000x1_S1600000x128_1_0_n_n_0_1_1128
    = Cert.ReferenceIdeal.gather_S100000x128_S1600000x1_S1600000x128_1_0_n_n_0_1_1128 := rfl

/-! ## The aggregated features: one term -/

open Cert.ReferenceIdeal.Read in
theorem agg_eq (x0 : (⟨Cert.ReferenceIdeal.S100000x128, .f32⟩ : BufTy).Contents (Elt Ideal))
    (x4 x5 : (⟨Cert.ReferenceIdeal.S1600000, .i32⟩ : BufTy).Contents (Elt Ideal)) :
    aggK x0 x4 x5 = val_main_v9 (F := Ideal) x0 x4 x5 := by
  unfold aggK val_main_v9 val_main_v8 val_main_v7 val_main_v6 val_main_v5 val_main_v4 val_main_v3 val_main_v2 val_main_v1
    val_main_v0 val_main_cst val_main_c val_main_c_0
  rw [scatterRows_eq, gatherRows_eq]

/-! ## The degree: the converted integer count is the float count -/

theorem numel_edges : (⟨1, ![1600000]⟩ : Shape).numel < 2 ^ 31 := by decide

open Cert.ReferenceIdeal.Read in
/-- The kernel program's degree column at node r is the reference's float degree count at node r. -/
theorem deg_eq (x4 : (⟨Cert.ReferenceIdeal.S1600000, .i32⟩ : BufTy).Contents (Elt Ideal)) (r : Fin 100000) :
    degColK x4 (ix2 r (0 : Fin 1)) = val_main_v13 (F := Ideal) x4 (ix1 r) := by
  unfold degColK
  rw [broadcastInDim_apply _ Cert.KernelIdeal.Facts₀.bcast_S100000_S100000x1_0 _ (ix2 r (0 : Fin 1)) (ix1 r) (fun a => by
    match a with
    | ⟨0, _⟩ => show r.val = if (100000 : Nat) = 1 then 0 else r.val; rw [if_neg (by decide)])]
  have z : broadcastInDim Cert.KernelIdeal.S100000 ![] Cert.KernelIdeal.Facts₀.bcast_S_S100000 (constantI Cert.KernelIdeal.S_ 32 0#32) = fun _ => 0#32 :=
    funext fun i => broadcastInDim_apply _ Cert.KernelIdeal.Facts₀.bcast_S_S100000 _ i (fun a => a.elim0) (fun a => a.elim0)
  have o : broadcastInDim Cert.KernelIdeal.S1600000 ![] Cert.KernelIdeal.Facts₀.bcast_S_S1600000 (constantI Cert.KernelIdeal.S_ 32 1#32) = fun _ => 1#32 :=
    funext fun i => broadcastInDim_apply _ Cert.KernelIdeal.Facts₀.bcast_S_S1600000 _ i (fun a => a.elim0) (fun a => a.elim0)
  have z' : val_main_v11 (F := Ideal) = fun _ => Ideal.ofBits .f32 0x00000000#32 :=
    funext fun i => by rw [val_main_v11_apply, val_main_cst_2_apply]; rfl
  have o' : val_main_v10 (F := Ideal) = fun _ => Ideal.ofBits .f32 0x3F800000#32 :=
    funext fun i => by rw [val_main_v10_apply, val_main_cst_1_apply]; rfl
  unfold cntK val_main_v13 val_main_v12
  rw [z, o, z', o', Cert.LibScatterCount.sitofp_scatter_ones_eq_scatterAdd _ _ numel_edges, scatterCount_eq]

end Cert.Bridge

end
-- ==== Proof.lean ====
/-
  A mean-aggregating graph layer (GraphSAGE): for each node, the mean of its in-neighbours' features times W,
  plus the node's own features times RW, plus a bias, over 100000 nodes, 128 channels and 1600000 edges.

  Both programs first gather the neighbour rows and add them up per destination node (the same host
  operations, on the same arguments: one term, never opened).  They then differ in two ways only.
    * The degree.  The kernel's program counts edges per node in 32-bit integers and converts the count to a
      float; the reference adds the float 1.0 per edge.  A count is at most 1600000 < 2^31, so the integer
      count does not wrap and its conversion is the exact count, which is what the ideal float sum of ones is;
      an edge whose destination index is out of range is dropped by both counts, by the same test.
    * The tiling.  The kernel computes the dense part block by block, 10 blocks of 10000 nodes, each block's
      two matrix products into a zero accumulator; the reference uses two whole matrix products.  At the ideal
      values each entry is the same sum over the 128 contracted channels.
  Entry by entry both are  (Σ_k (AGG(r,k) / max(deg r, 1)) · W(k,c)) + (Σ_k X(r,k) · RW(k,c)) + B(c),  the three
  terms added in the same order, so no law of arithmetic beyond this identification is needed and the
  finiteness of the inputs is never used.

  The three frames are the generated frame runs (the reference's is its generated run with the result dropped);
  the idealization rewrote nothing, so there is nothing to preserve.
-/
import proofs.«169489_j30081950941520_2_alg».proof.Defs
import proofs.«169489_j30081950941520_2_alg».proof.Proof.Gen.Kernel
import proofs.«169489_j30081950941520_2_alg».proof.Proof.Gen.Kernel.Skeleton
import proofs.«169489_j30081950941520_2_alg».proof.Proof.Gen.Kernel.Launch
import proofs.«169489_j30081950941520_2_alg».proof.Proof.Gen.Kernel.Points
import proofs.«169489_j30081950941520_2_alg».proof.Proof.Gen.Kernel.Frame
import proofs.«169489_j30081950941520_2_alg».proof.Proof.Gen.KernelIdeal
import proofs.«169489_j30081950941520_2_alg».proof.Proof.Gen.KernelIdeal.Skeleton
import proofs.«169489_j30081950941520_2_alg».proof.Proof.Gen.KernelIdeal.Launch
import proofs.«169489_j30081950941520_2_alg».proof.Proof.Gen.KernelIdeal.Points
import proofs.«169489_j30081950941520_2_alg».proof.Proof.Gen.KernelIdeal.Frame
import proofs.«169489_j30081950941520_2_alg».proof.Proof.Gen.ReferenceIdeal
import proofs.«169489_j30081950941520_2_alg».proof.Proof.Gen.Pre_finite_inputs
import proofs.«169489_j30081950941520_2_alg».proof.Proof.Gen.KernelIdeal.Value
import proofs.«169489_j30081950941520_2_alg».proof.Proof.Gen.ReferenceIdeal.Run
import proofs.«169489_j30081950941520_2_alg».proof.Proof.Gen.ReferenceIdeal.Read
import proofs.«169489_j30081950941520_2_alg».proof.Proof.KernelValue
import proofs.«169489_j30081950941520_2_alg».proof.Proof.RefValue
import proofs.«169489_j30081950941520_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result as the specification over the reference's host stages -/

section KernelSide
open Cert.KernelIdeal

variable (m : (ℓ : Loc nD τ sig) → Buf (Elt Ideal) ℓ) (ρ : Dev nD → PrngReg)

/-- The layer's output as a function of the six arguments: the specification over the aggregated features and the
    float degree count as the reference's stages spell them. -/
abbrev result (c : Dev nD) : (⟨2, ![100000, 128]⟩ : Shape).Idx → EReal :=
  Cert.Sage.out (m ((c : Thread nD τ).loc main_arg0))
    (Cert.ReferenceIdeal.Read.val_main_v9 (F := Ideal) (m ((c : Thread nD τ).loc main_arg0)) (m ((c : Thread nD τ).loc main_arg4)) (m ((c : Thread nD τ).loc main_arg5)))
    (fun r => Cert.ReferenceIdeal.Read.val_main_v13 (F := Ideal) (m ((c : Thread nD τ).loc main_arg4)) (ix1 r))
    (m ((c : Thread nD τ).loc main_arg1)) (m ((c : Thread nD τ).loc main_arg2)) (m ((c : Thread nD τ).loc main_arg3))

/-- The arrays the region finds are the arguments (X, W, RW, bias), the aggregated features, and the degree column
    whose entries are the float degree counts. -/
theorem outV_eq (c : Dev nD) : Cert.KernelIdeal.KernelValue.outV m c = result m c :=
  Cert.Sage.out_congr (Gen.V_main_arg0 m c)
    ((Cert.Bridge.V_agg m c).trans (Cert.Bridge.agg_eq _ _ _))
    (funext fun r => (congrFun (Cert.Bridge.V_deg m c) (ix2 r (0 : Fin 1))).trans (Cert.Bridge.deg_eq _ r))
    (Gen.V_main_arg1 m c) (Gen.V_main_arg2 m c) (Gen.V_main_arg3 m c)

/-- The kernel's run: the result array ends at the specification's output of the arguments, which are unchanged. -/
theorem kernel_run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((Cert.KernelIdeal.KernelValue.final6 m c).trans (outV_eq m c)), (h c).2⟩)
    (Cert.KernelIdeal.Value.run_blocks m ρ)

end KernelSide

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end at the specification's output of those arguments. -/
theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v24_eq _ _ _ _ _ _).trans (Cert.ReferenceIdeal.RefValue.result_eq _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
